-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S1x512 : Shape := ⟨2, ![1, 512]⟩
abbrev S512x128 : Shape := ⟨2, ![512, 128]⟩
abbrev S1x128 : Shape := ⟨2, ![1, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S16384x512 .f32) (main_arg1 : FVec F S512x512 .f32) (main_arg2 : FVec F S1x512 .f32) (main_arg3 : FVec F S512x128 .f32) (main_arg4 : FVec F S1x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S16384x512 : Shape := ⟨2, ![16384, 512]⟩
abbrev S512x512 : Shape := ⟨2, ![512, 512]⟩
abbrev S1x512 : Shape := ⟨2, ![1, 512]⟩
abbrev S512x128 : Shape := ⟨2, ![512, 128]⟩
abbrev S1x128 : Shape := ⟨2, ![1, 128]⟩
abbrev S16384x18 : Shape := ⟨2, ![16384, 18]⟩
abbrev S4096x512 : Shape := ⟨2, ![4096, 512]⟩
abbrev S4096x18 : Shape := ⟨2, ![4096, 18]⟩
abbrev S4096x128 : Shape := ⟨2, ![4096, 128]⟩

abbrev nBuf : Space → Nat
  | .hbm => 6
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S16384x18, .f32⟩
  | .local _ .vmem, ⟨0, _⟩ => ⟨S4096x512, .f32⟩
  | .local _ .vmem, ⟨1, _⟩ => ⟨S4096x512, .f32⟩
  | .local _ .vmem, ⟨2, _⟩ => ⟨S512x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S4096x18, .f32⟩
  | .local _ .vmem, ⟨7, _⟩ => ⟨S4096x18, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x18 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  broadcasts_S1x512_S4096x512 : S1x512.Broadcasts S4096x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S4096x128 : S1x128.Broadcasts S4096x128
  slices_S4096x128_o0_0_S4096x18 : S4096x128.Slices ![0, 0] S4096x18
  inb_S4096x18_S4096x18_0_0 : ∀ a, (![0, 0] : Fin 2 → Nat) a + S4096x18.size a ≤ S4096x18.size a
  h_S4096x18 : 0 < S4096x18.numel
  dot_S4096x512_S512x512_S4096x512_1_0_0_1_n_n_wf : DotDims.WF S4096x512 S512x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S16384x512.size a
  hwx0_0 : ∀ i : grid0.Coords, EltTy.bits .f32 = 32 ∨ (Rect.block (s := S16384x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x18.size a ≤ S16384x18.size a
  hwx0_5 : ∀ i : grid0.Coords, EltTy.bits .f32 = 32 ∨ (Rect.block (s := S16384x18) S4096x18.size (cc0_transform_5 i) (hinb0_5 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x18.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S1x512 : Shape := ⟨2, ![1, 512]⟩
abbrev S512x128 : Shape := ⟨2, ![512, 128]⟩
abbrev S1x128 : Shape := ⟨2, ![1, 128]⟩
abbrev S16384x128 : Shape := ⟨2, ![16384, 128]⟩
abbrev S16384x18 : Shape := ⟨2, ![16384, 18]⟩
abbrev S1024x512 : Shape := ⟨2, ![1024, 512]⟩
abbrev S1024x128 : Shape := ⟨2, ![1024, 128]⟩

abbrev nBuf : Space → Nat
  | .hbm => 7
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S16384x128, .f32⟩
  | .hbm, ⟨6, _⟩ => ⟨S16384x18, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S16384x128_S16384x18_0_0 : S16384x128.Slices ![0, 0] S16384x18
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S16384x128.size a
  hwx0_5 : ∀ i : grid0.Coords, EltTy.bits .f32 = 32 ∨ (Rect.block (s := S16384x128) S1024x128.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.MlpSpec.lean ====
/-
  The function both programs compute: a two-layer perceptron with a rectifier between the layers,
  one input row at a time.

  For an input row x (512 features), hidden weights w1 (512 × 512) with offsets b1, and output weights
  w2 (512 × 128) with offsets b2, output column c of the row is

      ( Σ_h  max( (Σ_k x_k · w1[k,h]) + b1[h] , 0 ) · w2[h,c] ) + b2[c] .

  Every output row depends on its own input row only, which is why the batch may be cut into row
  blocks of any height without changing a single entry.  The answer that is kept is the first 18 of
  the 128 output columns.  The zero under the maximum is left as the 32-bit word the programs print:
  the same word stands on both sides, so it is never evaluated.
-/
import Idealize.ShloMosaic.Lib.ValueIdx
import Idealize.ShloMosaic.PureOps.Ideal

noncomputable section

open scoped BigOperators

namespace Cert.Mlp

open Idealize.ShloMosaic Idealize.ShloMosaic.ValueIdx

/-- The hidden layer's unit `h` for the input row `xr`: the row times column `h` of the hidden weights, plus the
    offset, clipped below at zero. -/
def hidden (xr : Fin 512 → EReal) (w1 : (⟨2, ![512, 512]⟩ : Shape).Idx → EReal)
    (b1 : (⟨2, ![1, 512]⟩ : Shape).Idx → EReal) (h : Fin 512) : EReal :=
  max ((∑ k : Fin 512, xr k * w1 (ix2 k h)) + b1 (ix2 (0 : Fin 1) h)) (Ideal.ofBits .f32 0x00000000#32)

/-- Output column `c` for the input row `xr`: the hidden layer times column `c` of the output weights, plus the
    offset. -/
def rowOut (xr : Fin 512 → EReal) (w1 : (⟨2, ![512, 512]⟩ : Shape).Idx → EReal)
    (b1 : (⟨2, ![1, 512]⟩ : Shape).Idx → EReal) (w2 : (⟨2, ![512, 128]⟩ : Shape).Idx → EReal)
    (b2 : (⟨2, ![1, 128]⟩ : Shape).Idx → EReal) (c : Fin 128) : EReal :=
  (∑ h : Fin 512, hidden xr w1 b1 h * w2 (ix2 h c)) + b2 (ix2 (0 : Fin 1) c)

/-- Row `r` of the batch. -/
def row (x : (⟨2, ![16384, 512]⟩ : Shape).Idx → EReal) (r : Fin 16384) : Fin 512 → EReal := fun k => x (ix2 r k)

/-- All 128 output columns of every row of the batch. -/
def padded (x : (⟨2, ![16384, 512]⟩ : Shape).Idx → EReal) (w1 : (⟨2, ![512, 512]⟩ : Shape).Idx → EReal)
    (b1 : (⟨2, ![1, 512]⟩ : Shape).Idx → EReal) (w2 : (⟨2, ![512, 128]⟩ : Shape).Idx → EReal)
    (b2 : (⟨2, ![1, 128]⟩ : Shape).Idx → EReal) : (⟨2, ![16384, 128]⟩ : Shape).Idx → EReal :=
  fun i => rowOut (row x (i 0)) w1 b1 w2 b2 (i 1)

/-- A column among the first 18, as a column among the 128. -/
def col18 (q : Fin 18) : Fin 128 := ⟨q.val, by have := q.isLt; omega⟩

/-- The answer: the first 18 output columns of every row of the batch. -/
def actions (x : (⟨2, ![16384, 512]⟩ : Shape).Idx → EReal) (w1 : (⟨2, ![512, 512]⟩ : Shape).Idx → EReal)
    (b1 : (⟨2, ![1, 512]⟩ : Shape).Idx → EReal) (w2 : (⟨2, ![512, 128]⟩ : Shape).Idx → EReal)
    (b2 : (⟨2, ![1, 128]⟩ : Shape).Idx → EReal) : (⟨2, ![16384, 18]⟩ : Shape).Idx → EReal :=
  fun i => rowOut (row x (i 0)) w1 b1 w2 b2 (col18 (i 1))

/-- The answer is the first 18 columns of the padded result. -/
theorem actions_apply (x : (⟨2, ![16384, 512]⟩ : Shape).Idx → EReal) (w1 : (⟨2, ![512, 512]⟩ : Shape).Idx → EReal)
    (b1 : (⟨2, ![1, 512]⟩ : Shape).Idx → EReal) (w2 : (⟨2, ![512, 128]⟩ : Shape).Idx → EReal)
    (b2 : (⟨2, ![1, 128]⟩ : Shape).Idx → EReal) (r : Fin 16384) (q : Fin 18) :
    actions x w1 b1 w2 b2 (ix2 r q) = padded x w1 b1 w2 b2 (ix2 r (col18 q)) := rfl

end Cert.Mlp

end
-- ==== Proof.LibDotRows.lean ====
/-
  A plain two-dimensional contraction read at an index.

  For dimension numbers that contract the left operand's columns with the right operand's rows and have
  no batch axis — an M×K array times a K×N array — the sum over the contraction index that a matrix
  product denotes on the extended reals is the familiar row-by-column sum: entry (r, c) of the product is
  the sum over k < K of left (r, k) · right (k, c).  Both the kernel-side product into a zero accumulator
  and the host-side product follow.
-/
import Idealize.ShloMosaic.Lib.ValueIdx
import Idealize.ShloMosaic.PureOps.Ideal.Laws

noncomputable section

namespace Idealize.ShloMosaic.DotRows

open Idealize.ShloMosaic Idealize.ShloMosaic.ValueIdx

/-- The contraction sum of a plain M×K by K×N product at entry `j` is the sum over `k < K` of the left
    operand at (row of `j`, `k`) times the right operand at (`k`, column of `j`). -/
theorem contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  obtain ⟨lc, rc, ln, rn, lb, rb, wf⟩ := d
  dsimp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx j ((contrEquiv1 (DotDims.mk [1] [0] [0] [1] [] [] wf) K rfl rfl).symm k)
      = ix2 (j 0) k := funext fun a => Fin.ext (by
    match a with
    | ⟨0, _⟩ =>
      show ((DotDims.mk [1] [0] [0] [1] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [0] [0] [1] [] [] wf).lhsIdx_val_of_single rfl j _).trans hk)
  have er : (DotDims.mk [1] [0] [0] [1] [] [] wf).rhsIdx j ((contrEquiv1 (DotDims.mk [1] [0] [0] [1] [] [] wf) K rfl rfl).symm k)
      = ix2 k (j 1) := funext fun a => Fin.ext (by
    match a with
    | ⟨0, _⟩ => exact ((DotDims.mk [1] [0] [0] [1] [] [] wf).rhsIdx_val_of_single rfl j _).trans hk
    | ⟨1, _⟩ =>
      show ((DotDims.mk [1] [0] [0] [1] [] [] wf).rhsIdx j _ 1).val = (j 1).val
      unfold DotDims.rhsIdx
      rw [dif_neg (show ¬ (1 : Fin 2) ∈ ([] : List (Fin 2)) from List.not_mem_nil),
        dif_pos (show (1 : Fin 2) ∈ ([1] : List (Fin 2)) from List.mem_singleton.mpr rfl)]
      rfl)
  exact congrArg₂ (fun a b => lhs a * rhs b) el er

/-- A kernel-side matrix product into the zero accumulator, at the ideal values, is the row-by-column sum. -/
theorem matmul_zero_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j
      = ∑ k : Fin K, lhs (ix2 (j 0) k) * rhs (ix2 k (j 1)) :=
  (Ideal.matmul_constant_zero_apply d prec lhs rhs j).trans (contr_sum d hlc hrc hln hrn hlb hrb lhs rhs j)

/-- A host-side matrix product, at the ideal values, is the same row-by-column sum. -/
theorem dotGeneral_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    Host.dotGeneral d prec lhs rhs j = ∑ k : Fin K, lhs (ix2 (j 0) k) * rhs (ix2 k (j 1)) := by
  simp only [Host.dotGeneral]
  exact (Ideal.dotGeneral_apply d prec _ lhs rhs j).trans (contr_sum d hlc hrc hln hrn hlb hrb lhs rhs j)

/-- The same two facts at an index given by its two coordinates. -/
theorem matmul_zero_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) :=
  matmul_zero_apply d hlc hrc hln hrn hlb hrb prec lhs rhs (ix2 p q)

theorem dotGeneral_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) :=
  dotGeneral_apply d hlc hrc hln hrn hlb hrb prec lhs rhs (ix2 p q)

end Idealize.ShloMosaic.DotRows

end
-- ==== Proof.KernelBlock.lean ====
/-
  What the kernel's body stores for one block of 4096 rows, entry by entry.

  The body multiplies the block by the hidden weights, adds the hidden offsets to every row, clips at zero,
  multiplies by the output weights, adds the output offsets to every row, and keeps the first 18 columns.
  The two changes of number format before the products do nothing to an extended real.  So entry (p, q) of
  the stored block is the perceptron's output column q for the block's row p — a function of that one row
  and of the weights.
-/
import proofs.«103398_g2000305475654805_pallasbulk_154_25_alg».proof.Proof.Gen.KernelIdeal.Skeleton
import proofs.«103398_g2000305475654805_pallasbulk_154_25_alg».proof.Proof.MlpSpec
import proofs.«103398_g2000305475654805_pallasbulk_154_25_alg».proof.Proof.LibDotRows
import Idealize.ShloMosaic.Lib.ValueLayout

noncomputable section

open scoped BigOperators

namespace Cert.KernelIdeal.Block

open Cert.KernelIdeal Cert.KernelIdeal.Gen Idealize.ShloMosaic Idealize.ShloMosaic.ValueIdx

/-- Entry (p, q) of what the body stores is output column q of the perceptron on row p of the block. -/
theorem payload_apply (x0 : Vec Ideal S4096x512 .f32) (x1 : Vec Ideal S512x512 .f32) (x2 : Vec Ideal S1x512 .f32)
    (x3 : Vec Ideal S512x128 .f32) (x4 : Vec Ideal S1x128 .f32) (p : Fin 4096) (q : Fin 18) :
    k0_pay1 (F := Ideal) x0 x1 x2 x3 x4 (ix2 p q)
      = Cert.Mlp.rowOut (fun k => x0 (ix2 p k)) x1 x2 x3 x4 (Cert.Mlp.col18 q) := by
  unfold k0_pay1
  -- keeping the first 18 columns reads column q of the 128
  refine (slice2_axis1_apply 0 _ _ p q (Cert.Mlp.col18 q) (Nat.zero_add _).symm).trans ?_
  unfold Cert.Mlp.rowOut
  refine (addf_apply _ _ _).trans ?_
  refine congrArg₂ (· + ·) ?_ (broadcastTo_1b_ab_apply x4 _ p _)
  -- the second product, row p by column q
  refine (DotRows.matmul_zero_ix2 _ rfl rfl rfl rfl rfl rfl none _ _ p _).trans ?_
  refine Finset.sum_congr rfl fun h _ => ?_
  refine congrArg₂ (· * ·) ?_ rfl
  -- the hidden unit h of row p
  unfold Cert.Mlp.hidden
  refine (maximumf_apply _ _ (ix2 p h)).trans ?_
  refine congrArg₂ max ?_ rfl
  refine (addf_apply _ _ _).trans ?_
  refine congrArg₂ (· + ·) ?_ (broadcastTo_1b_ab_apply x2 _ p h)
  exact DotRows.matmul_zero_ix2 _ rfl rfl rfl rfl rfl rfl none _ _ p h

end Cert.KernelIdeal.Block

end
-- ==== Proof.KernelRows.lean ====
/-
  The kernel's result array, entry by entry.

  The grid has four points; point t takes rows 4096·t … 4096·t + 4095 of the batch together with the whole
  weight and offset arrays, and writes rows 4096·t … 4096·t + 4095 of the result.  What it writes is, entry by
  entry, the perceptron's output for the corresponding row of the batch (Block.payload_apply), which is a
  function of that row alone — so the block written at point t is the restriction of ONE whole-array
  function, the answer, to its rows.  The four blocks tile the 16384 rows, so the array ends holding the
  answer everywhere.
-/
import proofs.«103398_g2000305475654805_pallasbulk_154_25_alg».proof.Proof.Gen.KernelIdeal.Value
import proofs.«103398_g2000305475654805_pallasbulk_154_25_alg».proof.Proof.KernelBlock

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point `t`: the batch's block moves down the rows with the result's,
    every weight and offset array is taken whole, and the result's row block is one of the four. -/
theorem block_indices : ∀ t : Fin cfg0.N,
      win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 3 ∧ win0_5.index t (1 : Fin 2) = 0 :=
  (by decide +kernel : ∀ t : Fin grid0.N, _)

/-- Each of the four row blocks of the result is written at some grid point. -/
theorem every_row_block : ∀ b : Fin 4, ∃ t : Fin cfg0.N, win0_5.index t = ![b.val, 0] :=
  (by decide +kernel : ∀ b : Fin 4, ∃ t : Fin grid0.N, win0_5.index t = ![b.val, 0])

/-- The answer: the perceptron's first 18 output columns for every row of the batch, of the arrays as launched. -/
abbrev answer (c : Dev nD) : S16384x18.Idx → Elt Ideal .f32 :=
  Cert.Mlp.actions (m ((c : Thread nD τ).loc main_arg0)) (m ((c : Thread nD τ).loc main_arg1)) (m ((c : Thread nD τ).loc main_arg2)) (m ((c : Thread nD τ).loc main_arg3)) (m ((c : Thread nD τ).loc main_arg4))

/-! ## The input blocks as parts of the argument arrays -/

/-- Row p of the batch's block at point `t` is row 4096·(the result's row block) + p of the batch. -/
theorem batch_rows (c : Dev nD) (t : Fin cfg0.N) (p : Fin 4096) (k : Fin 512) (r : Fin 16384)
    (hr : r.val = win0_5.index t (0 : Fin 2) * 4096 + p.val) :
    (iblk m c 0 t : Vec Ideal S4096x512 .f32) (ix2 p k)
      = (m ((c : Thread nD τ).loc main_arg0) : S16384x512.Idx → Elt Ideal .f32) (ix2 r k) := by
  obtain ⟨e0, e1, -⟩ := block_indices t
  show V m c main_arg0 (((cfg0.win 0).blk t).view.emb (ix2 p k)) = V m c main_arg0 (ix2 r k)
  have h : ((cfg0.win 0).blk t).view.emb (ix2 p k) = ix2 r k := by
    funext a; apply Fin.ext
    match a with
    | ⟨0, _⟩ => show win0_0.index t (0 : Fin 2) * 4096 + 1 * p.val = r.val; omega
    | ⟨1, _⟩ => show win0_0.index t (1 : Fin 2) * 512 + 1 * k.val = k.val; omega
  rw [h]

/-- The hidden weights' block is the whole array at every point. -/
theorem hidden_weights_whole (c : Dev nD) (t : Fin cfg0.N) :
    (iblk m c 1 t : Vec Ideal S512x512 .f32) = (m ((c : Thread nD τ).loc main_arg1) : S512x512.Idx → Elt Ideal .f32) := by
  obtain ⟨-, -, e0, e1, -⟩ := block_indices t
  funext y
  show V m c main_arg1 (((cfg0.win 1).blk t).view.emb y) = V m c main_arg1 y
  have h : ((cfg0.win 1).blk t).view.emb y = y := by
    funext a; apply Fin.ext
    match a with
    | ⟨0, _⟩ => show win0_1.index t (0 : Fin 2) * 512 + 1 * (y 0).val = (y 0).val; omega
    | ⟨1, _⟩ => show win0_1.index t (1 : Fin 2) * 512 + 1 * (y 1).val = (y 1).val; omega
  rw [h]

/-- The hidden offsets' block is the whole array at every point. -/
theorem hidden_offsets_whole (c : Dev nD) (t : Fin cfg0.N) :
    (iblk m c 2 t : Vec Ideal S1x512 .f32) = (m ((c : Thread nD τ).loc main_arg2) : S1x512.Idx → Elt Ideal .f32) := by
  obtain ⟨-, -, -, -, e0, e1, -⟩ := block_indices t
  funext y
  show V m c main_arg2 (((cfg0.win 2).blk t).view.emb y) = V m c main_arg2 y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 512 + 1 * (y 1).val = (y 1).val; omega
  rw [h]

/-- The output weights' block is the whole array at every point. -/
theorem output_weights_whole (c : Dev nD) (t : Fin cfg0.N) :
    (iblk m c 3 t : Vec Ideal S512x128 .f32) = (m ((c : Thread nD τ).loc main_arg3) : S512x128.Idx → Elt Ideal .f32) := by
  obtain ⟨-, -, -, -, -, -, e0, e1, -⟩ := block_indices t
  funext y
  show V m c main_arg3 (((cfg0.win 3).blk t).view.emb y) = V m c main_arg3 y
  have h : ((cfg0.win 3).blk t).view.emb y = y := by
    funext a; apply Fin.ext
    match a with
    | ⟨0, _⟩ => show win0_3.index t (0 : Fin 2) * 512 + 1 * (y 0).val = (y 0).val; omega
    | ⟨1, _⟩ => show win0_3.index t (1 : Fin 2) * 128 + 1 * (y 1).val = (y 1).val; omega
  rw [h]

/-- The output offsets' block is the whole array at every point. -/
theorem output_offsets_whole (c : Dev nD) (t : Fin cfg0.N) :
    (iblk m c 4 t : Vec Ideal S1x128 .f32) = (m ((c : Thread nD τ).loc main_arg4) : S1x128.Idx → Elt Ideal .f32) := by
  obtain ⟨-, -, -, -, -, -, -, -, e0, e1, -⟩ := block_indices t
  funext y
  show V m c main_arg4 (((cfg0.win 4).blk t).view.emb y) = V m c main_arg4 y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [h]

/-! ## One entry of one block -/

/-- If the block `x0` holds rows 4096·b … of the batch `X`, then entry `y` of what the body stores is the answer at
    the entry of the result that `y` is written to: row 4096·b + (row of `y`), the same column. -/
theorem entry (X : S16384x512.Idx → Elt Ideal .f32) (W1 : S512x512.Idx → Elt Ideal .f32) (B1 : S1x512.Idx → Elt Ideal .f32)
    (W2 : S512x128.Idx → Elt Ideal .f32) (B2 : S1x128.Idx → Elt Ideal .f32) (x0 : Vec Ideal S4096x512 .f32) (b : Nat)
    (hx : ∀ (p : Fin 4096) (k : Fin 512) (r : Fin 16384), r.val = b * 4096 + p.val → x0 (ix2 p k) = X (ix2 r k))
    (y : S4096x18.Idx) (i : S16384x18.Idx) (h0 : (i 0).val = b * 4096 + (y 0).val) (h1 : (i 1).val = (y 1).val) :
    k0_pay1 (F := Ideal) x0 W1 B1 W2 B2 y = Cert.Mlp.actions X W1 B1 W2 B2 i := by
  have e : k0_pay1 (F := Ideal) x0 W1 B1 W2 B2 y = k0_pay1 (F := Ideal) x0 W1 B1 W2 B2 (ix2 (y 0) (y 1)) :=
    congrArg (k0_pay1 (F := Ideal) x0 W1 B1 W2 B2) (eq_ix2 y)
  refine e.trans ((Block.payload_apply x0 W1 B1 W2 B2 (y 0) (y 1)).trans ?_)
  unfold Cert.Mlp.actions
  have hrow : (fun k : Fin 512 => x0 (ix2 (y 0) k)) = Cert.Mlp.row X (i 0) := funext fun k => hx (y 0) k (i 0) h0
  have hcol : Cert.Mlp.col18 (y 1) = Cert.Mlp.col18 (i 1) := Fin.ext h1.symm
  rw [hrow, hcol]

/-! ## What a point writes back, the cover, the array after the run -/

/-- What point `t` writes back is the answer read through the point's block of the result. -/
theorem flushed_eq (c : Dev nD) (t : Fin cfg0.N) :
    (dats m 0 c).flushed 5 t = ((cfg0.win 5).blk t).view.read (Elt Ideal) (answer m c) := by
  show (cfg0.win 5).cut (grid0.coords t) ((dats m 0 c).after 5 t) = _
  rw [after0_5]
  unfold out0_5
  rw [View.canon_unit_zero zero_offsets]
  simp only [View.ld_unit_zero (S := S4096x512) zero_offsets, View.ld_unit_zero (S := S512x512) zero_offsets,
    View.ld_unit_zero (S := S1x512) zero_offsets, View.ld_unit_zero (S := S512x128) zero_offsets,
    View.ld_unit_zero (S := S1x128) zero_offsets]
  rw [hidden_weights_whole m c t, hidden_offsets_whole m c t, output_weights_whole m c t, output_offsets_whole m c t]
  obtain ⟨-, -, -, -, -, -, -, -, -, -, -, e1⟩ := block_indices t
  funext j
  show k0_pay1 (F := Ideal) (iblk m c 0 t) (m ((c : Thread nD τ).loc main_arg1)) (m ((c : Thread nD τ).loc main_arg2)) (m ((c : Thread nD τ).loc main_arg3)) (m ((c : Thread nD τ).loc main_arg4)) j
    = answer m c (((cfg0.win 5).blk t).view.emb j)
  refine entry (m ((c : Thread nD τ).loc main_arg0)) (m ((c : Thread nD τ).loc main_arg1)) (m ((c : Thread nD τ).loc main_arg2)) (m ((c : Thread nD τ).loc main_arg3)) (m ((c : Thread nD τ).loc main_arg4)) (iblk m c 0 t)
    (win0_5.index t (0 : Fin 2)) (fun p k r hr => batch_rows m c t p k r hr) j (((cfg0.win 5).blk t).view.emb j) ?_ ?_
  · show win0_5.index t (0 : Fin 2) * 4096 + 1 * (j 0).val = win0_5.index t (0 : Fin 2) * 4096 + (j 0).val; omega
  · show win0_5.index t (1 : Fin 2) * 18 + 1 * (j 1).val = (j 1).val; omega

/-- An entry of the result is in point `t`'s block iff each coordinate is in the block's range on its axis. -/
theorem mem_block (t : Fin cfg0.N) (i : S16384x18.Idx) :
    i ∈ ((cfg0.win 5).blk t).view.set ↔ ∀ a : Fin 2, win0_5.index t a * S4096x18.size a ≤ (i a).val
      ∧ (i a).val < win0_5.index t a * S4096x18.size a + S4096x18.size a := by
  show i ∈ ((View.whole main_v0).slice (win0_5.rect t)).set ↔ _
  rw [View.set_slice_whole, Rect.mem_set_unit]
  exact Iff.rfl

/-- Every entry of the result is written by the point whose row block holds its row: row r by block r / 4096. -/
theorem covered (i : S16384x18.Idx) :
    ∃ t : Fin cfg0.N, (cfg0.win 5).flush t = true ∧ i ∈ ((cfg0.win 5).blk t).view.set := by
  have hi0 : (i 0).val < 16384 := (i 0).isLt
  have hi1 : (i 1).val < 18 := (i 1).isLt
  obtain ⟨t, ht⟩ := every_row_block ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_block]
  intro a
  match a with
  | ⟨0, _⟩ =>
    show win0_5.index t (0 : Fin 2) * 4096 ≤ (i 0).val ∧ (i 0).val < win0_5.index t (0 : Fin 2) * 4096 + 4096
    omega
  | ⟨1, _⟩ =>
    show win0_5.index t (1 : Fin 2) * 18 ≤ (i 1).val ∧ (i 1).val < win0_5.index t (1 : Fin 2) * 18 + 18
    omega

/-- The result array after the run is the answer. -/
theorem final (c : Dev nD) : (dats m 0 c).arrAt 5 cfg0.N = answer m c :=
  (dats m 0 c).arrAt_eq_of_cover 5 (answer m c) (fun t _ => flushed_eq m c t) (covered)

/-- The kernel's run: it ends with the result array at the answer and the arguments as launched. -/
theorem run : θ_run defs (onTc (τ := τ) (main (F := Ideal))) ⟨m, fun _ => 0, ρ⟩ fun r => ∀ c : Dev nD,
      r.2.mem ((c : Thread nD τ).loc main_v0) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Rows

end
-- ==== Proof.ReferenceBlock.lean ====
/-
  What the reference's body stores for one block of 1024 rows, entry by entry.

  The body multiplies the block by the hidden weights, adds the hidden offsets to every row, clips at zero,
  multiplies by the output weights and adds the output offsets to every row; all 128 columns are stored.
  So entry (p, c) of the stored block is the perceptron's output column c for the block's row p — a
  function of that one row and of the weights.
-/
import proofs.«103398_g2000305475654805_pallasbulk_154_25_alg».proof.Proof.Gen.ReferenceIdeal.Skeleton
import proofs.«103398_g2000305475654805_pallasbulk_154_25_alg».proof.Proof.MlpSpec
import proofs.«103398_g2000305475654805_pallasbulk_154_25_alg».proof.Proof.LibDotRows
import Idealize.ShloMosaic.Lib.ValueLayout

noncomputable section

open scoped BigOperators

namespace Cert.ReferenceIdeal.Block

open Cert.ReferenceIdeal Cert.ReferenceIdeal.Gen Idealize.ShloMosaic Idealize.ShloMosaic.ValueIdx

/-- Entry (p, c) of what the body stores is output column c of the perceptron on row p of the block. -/
theorem payload_apply (x0 : Vec Ideal S1024x512 .f32) (x1 : Vec Ideal S512x512 .f32) (x2 : Vec Ideal S1x512 .f32)
    (x3 : Vec Ideal S512x128 .f32) (x4 : Vec Ideal S1x128 .f32) (p : Fin 1024) (c : Fin 128) :
    k0_pay1 (F := Ideal) x0 x1 x2 x3 x4 (ix2 p c)
      = Cert.Mlp.rowOut (fun k => x0 (ix2 p k)) x1 x2 x3 x4 c := by
  unfold k0_pay1
  unfold Cert.Mlp.rowOut
  refine (addf_apply _ _ _).trans ?_
  refine congrArg₂ (· + ·) ?_ (broadcastTo_1b_ab_apply x4 _ p c)
  -- the second product, row p by column c
  refine (DotRows.matmul_zero_ix2 _ rfl rfl rfl rfl rfl rfl none _ _ p c).trans ?_
  refine Finset.sum_congr rfl fun h _ => ?_
  refine congrArg₂ (· * ·) ?_ rfl
  -- the hidden unit h of row p
  unfold Cert.Mlp.hidden
  refine (maximumf_apply _ _ (ix2 p h)).trans ?_
  refine congrArg₂ max ?_ rfl
  refine (addf_apply _ _ _).trans ?_
  refine congrArg₂ (· + ·) ?_ (broadcastTo_1b_ab_apply x2 _ p h)
  exact DotRows.matmul_zero_ix2 _ rfl rfl rfl rfl rfl rfl none _ _ p h

end Cert.ReferenceIdeal.Block

end
-- ==== Proof.ReferenceRows.lean ====
/-
  The reference's padded result array, entry by entry, and the answer it keeps.

  The grid has sixteen points; point t takes rows 1024·t … 1024·t + 1023 of the batch together with the whole
  weight and offset arrays, and writes rows 1024·t … 1024·t + 1023 of a 16384 × 128 array.  What it writes is,
  entry by entry, the perceptron's output for the corresponding row of the batch (Block.payload_apply), a
  function of that row alone — so each block is the restriction of ONE whole-array function, the padded
  result, to its rows.  The sixteen blocks tile the 16384 rows, so that array ends holding the padded result
  everywhere.  After the grid the program keeps the first 18 of the 128 columns: the answer.
-/
import proofs.«103398_g2000305475654805_pallasbulk_154_25_alg».proof.Proof.Gen.ReferenceIdeal.Frame
import proofs.«103398_g2000305475654805_pallasbulk_154_25_alg».proof.Proof.ReferenceBlock
import Idealize.ShloMosaic.Lib.Pipeline.Value
import Idealize.ShloMosaic.Lib.StableHlo.Run

noncomputable section

namespace Cert.ReferenceIdeal.Rows

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point `t`: the batch's block moves down the rows with the padded
    result's, every weight and offset array is taken whole, and the result's row block is one of the sixteen. -/
theorem block_indices : ∀ t : Fin cfg0.N,
      win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 15 ∧ win0_5.index t (1 : Fin 2) = 0 :=
  (by decide +kernel : ∀ t : Fin grid0.N, _)

/-- Each of the sixteen row blocks of the padded result is written at some grid point. -/
theorem every_row_block : ∀ b : Fin 16, ∃ t : Fin cfg0.N, win0_5.index t = ![b.val, 0] :=
  (by decide +kernel : ∀ b : Fin 16, ∃ t : Fin grid0.N, win0_5.index t = ![b.val, 0])

/-- The padded result: the perceptron's 128 output columns for every row of the batch, of the arrays as launched. -/
abbrev paddedAnswer (c : Dev nD) : S16384x128.Idx → Elt Ideal .f32 :=
  Cert.Mlp.padded (m ((c : Thread nD τ).loc main_arg0)) (m ((c : Thread nD τ).loc main_arg1)) (m ((c : Thread nD τ).loc main_arg2)) (m ((c : Thread nD τ).loc main_arg3)) (m ((c : Thread nD τ).loc main_arg4))

/-- The answer: its first 18 columns. -/
abbrev answer (c : Dev nD) : S16384x18.Idx → Elt Ideal .f32 :=
  Cert.Mlp.actions (m ((c : Thread nD τ).loc main_arg0)) (m ((c : Thread nD τ).loc main_arg1)) (m ((c : Thread nD τ).loc main_arg2)) (m ((c : Thread nD τ).loc main_arg3)) (m ((c : Thread nD τ).loc main_arg4))

/-! ## The input blocks as parts of the argument arrays -/

/-- Row p of the batch's block at point `t` is row 1024·(the result's row block) + p of the batch. -/
theorem batch_rows (c : Dev nD) (t : Fin cfg0.N) (p : Fin 1024) (k : Fin 512) (r : Fin 16384)
    (hr : r.val = win0_5.index t (0 : Fin 2) * 1024 + p.val) :
    (iblk m c 0 t : Vec Ideal S1024x512 .f32) (ix2 p k)
      = (m ((c : Thread nD τ).loc main_arg0) : S16384x512.Idx → Elt Ideal .f32) (ix2 r k) := by
  obtain ⟨e0, e1, -⟩ := block_indices t
  show V m c main_arg0 (((cfg0.win 0).blk t).view.emb (ix2 p k)) = V m c main_arg0 (ix2 r k)
  have h : ((cfg0.win 0).blk t).view.emb (ix2 p k) = ix2 r k := by
    funext a; apply Fin.ext
    match a with
    | ⟨0, _⟩ => show win0_0.index t (0 : Fin 2) * 1024 + 1 * p.val = r.val; omega
    | ⟨1, _⟩ => show win0_0.index t (1 : Fin 2) * 512 + 1 * k.val = k.val; omega
  rw [h]

/-- The hidden weights' block is the whole array at every point. -/
theorem hidden_weights_whole (c : Dev nD) (t : Fin cfg0.N) :
    (iblk m c 1 t : Vec Ideal S512x512 .f32) = (m ((c : Thread nD τ).loc main_arg1) : S512x512.Idx → Elt Ideal .f32) := by
  obtain ⟨-, -, e0, e1, -⟩ := block_indices t
  funext y
  show V m c main_arg1 (((cfg0.win 1).blk t).view.emb y) = V m c main_arg1 y
  have h : ((cfg0.win 1).blk t).view.emb y = y := by
    funext a; apply Fin.ext
    match a with
    | ⟨0, _⟩ => show win0_1.index t (0 : Fin 2) * 512 + 1 * (y 0).val = (y 0).val; omega
    | ⟨1, _⟩ => show win0_1.index t (1 : Fin 2) * 512 + 1 * (y 1).val = (y 1).val; omega
  rw [h]

/-- The hidden offsets' block is the whole array at every point. -/
theorem hidden_offsets_whole (c : Dev nD) (t : Fin cfg0.N) :
    (iblk m c 2 t : Vec Ideal S1x512 .f32) = (m ((c : Thread nD τ).loc main_arg2) : S1x512.Idx → Elt Ideal .f32) := by
  obtain ⟨-, -, -, -, e0, e1, -⟩ := block_indices t
  funext y
  show V m c main_arg2 (((cfg0.win 2).blk t).view.emb y) = V m c main_arg2 y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 512 + 1 * (y 1).val = (y 1).val; omega
  rw [h]

/-- The output weights' block is the whole array at every point. -/
theorem output_weights_whole (c : Dev nD) (t : Fin cfg0.N) :
    (iblk m c 3 t : Vec Ideal S512x128 .f32) = (m ((c : Thread nD τ).loc main_arg3) : S512x128.Idx → Elt Ideal .f32) := by
  obtain ⟨-, -, -, -, -, -, e0, e1, -⟩ := block_indices t
  funext y
  show V m c main_arg3 (((cfg0.win 3).blk t).view.emb y) = V m c main_arg3 y
  have h : ((cfg0.win 3).blk t).view.emb y = y := by
    funext a; apply Fin.ext
    match a with
    | ⟨0, _⟩ => show win0_3.index t (0 : Fin 2) * 512 + 1 * (y 0).val = (y 0).val; omega
    | ⟨1, _⟩ => show win0_3.index t (1 : Fin 2) * 128 + 1 * (y 1).val = (y 1).val; omega
  rw [h]

/-- The output offsets' block is the whole array at every point. -/
theorem output_offsets_whole (c : Dev nD) (t : Fin cfg0.N) :
    (iblk m c 4 t : Vec Ideal S1x128 .f32) = (m ((c : Thread nD τ).loc main_arg4) : S1x128.Idx → Elt Ideal .f32) := by
  obtain ⟨-, -, -, -, -, -, -, -, e0, e1, -⟩ := block_indices t
  funext y
  show V m c main_arg4 (((cfg0.win 4).blk t).view.emb y) = V m c main_arg4 y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [h]

/-! ## One entry of one block -/

/-- If the block `x0` holds rows 1024·b … of the batch `X`, then entry `y` of what the body stores is the padded
    result at the entry that `y` is written to: row 1024·b + (row of `y`), the same column. -/
theorem entry (X : S16384x512.Idx → Elt Ideal .f32) (W1 : S512x512.Idx → Elt Ideal .f32) (B1 : S1x512.Idx → Elt Ideal .f32)
    (W2 : S512x128.Idx → Elt Ideal .f32) (B2 : S1x128.Idx → Elt Ideal .f32) (x0 : Vec Ideal S1024x512 .f32) (b : Nat)
    (hx : ∀ (p : Fin 1024) (k : Fin 512) (r : Fin 16384), r.val = b * 1024 + p.val → x0 (ix2 p k) = X (ix2 r k))
    (y : S1024x128.Idx) (i : S16384x128.Idx) (h0 : (i 0).val = b * 1024 + (y 0).val) (h1 : (i 1).val = (y 1).val) :
    k0_pay1 (F := Ideal) x0 W1 B1 W2 B2 y = Cert.Mlp.padded X W1 B1 W2 B2 i := by
  have e : k0_pay1 (F := Ideal) x0 W1 B1 W2 B2 y = k0_pay1 (F := Ideal) x0 W1 B1 W2 B2 (ix2 (y 0) (y 1)) :=
    congrArg (k0_pay1 (F := Ideal) x0 W1 B1 W2 B2) (eq_ix2 y)
  refine e.trans ((Block.payload_apply x0 W1 B1 W2 B2 (y 0) (y 1)).trans ?_)
  unfold Cert.Mlp.padded
  have hrow : (fun k : Fin 512 => x0 (ix2 (y 0) k)) = Cert.Mlp.row X (i 0) := funext fun k => hx (y 0) k (i 0) h0
  have hcol : (y 1 : Fin 128) = (i 1 : Fin 128) := Fin.ext h1.symm
  exact congrArg₂ (fun xr c => Cert.Mlp.rowOut xr W1 B1 W2 B2 c) hrow hcol

/-! ## What a point writes back, the cover, the padded array after the grid -/

/-- What point `t` writes back is the padded result read through the point's block. -/
theorem flushed_eq (c : Dev nD) (t : Fin cfg0.N) :
    (dats m 0 c).flushed 5 t = ((cfg0.win 5).blk t).view.read (Elt Ideal) (paddedAnswer m c) := by
  show (cfg0.win 5).cut (grid0.coords t) ((dats m 0 c).after 5 t) = _
  rw [after0_5]
  unfold out0_5
  rw [View.canon_unit_zero zero_offsets]
  simp only [View.ld_unit_zero (S := S1024x512) zero_offsets, View.ld_unit_zero (S := S512x512) zero_offsets,
    View.ld_unit_zero (S := S1x512) zero_offsets, View.ld_unit_zero (S := S512x128) zero_offsets,
    View.ld_unit_zero (S := S1x128) zero_offsets]
  rw [hidden_weights_whole m c t, hidden_offsets_whole m c t, output_weights_whole m c t, output_offsets_whole m c t]
  obtain ⟨-, -, -, -, -, -, -, -, -, -, -, e1⟩ := block_indices t
  funext j
  show k0_pay1 (F := Ideal) (iblk m c 0 t) (m ((c : Thread nD τ).loc main_arg1)) (m ((c : Thread nD τ).loc main_arg2)) (m ((c : Thread nD τ).loc main_arg3)) (m ((c : Thread nD τ).loc main_arg4)) j
    = paddedAnswer m c (((cfg0.win 5).blk t).view.emb j)
  refine entry (m ((c : Thread nD τ).loc main_arg0)) (m ((c : Thread nD τ).loc main_arg1)) (m ((c : Thread nD τ).loc main_arg2)) (m ((c : Thread nD τ).loc main_arg3)) (m ((c : Thread nD τ).loc main_arg4)) (iblk m c 0 t)
    (win0_5.index t (0 : Fin 2)) (fun p k r hr => batch_rows m c t p k r hr) j (((cfg0.win 5).blk t).view.emb j) ?_ ?_
  · show win0_5.index t (0 : Fin 2) * 1024 + 1 * (j 0).val = win0_5.index t (0 : Fin 2) * 1024 + (j 0).val; omega
  · show win0_5.index t (1 : Fin 2) * 128 + 1 * (j 1).val = (j 1).val; omega

/-- An entry of the padded array is in point `t`'s block iff each coordinate is in the block's range on its axis. -/
theorem mem_block (t : Fin cfg0.N) (i : S16384x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_call0_v0).slice (win0_5.rect t)).set ↔ _
  rw [View.set_slice_whole, Rect.mem_set_unit]
  exact Iff.rfl

/-- Every entry of the padded array is written by the point whose row block holds its row: row r by block r / 1024. -/
theorem covered (i : S16384x128.Idx) :
    ∃ t : Fin cfg0.N, (cfg0.win 5).flush t = true ∧ i ∈ ((cfg0.win 5).blk t).view.set := by
  have hi0 : (i 0).val < 16384 := (i 0).isLt
  have hi1 : (i 1).val < 128 := (i 1).isLt
  obtain ⟨t, ht⟩ := every_row_block ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_block]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 128 ≤ (i 1).val ∧ (i 1).val < win0_5.index t (1 : Fin 2) * 128 + 128
    omega

/-- The padded array after the grid is the padded result. -/
theorem final (c : Dev nD) : (dats m 0 c).arrAt 5 cfg0.N = paddedAnswer m c :=
  (dats m 0 c).arrAt_eq_of_cover 5 (paddedAnswer m c) (fun t _ => flushed_eq m c t) (covered)

/-! ## After the grid: keeping the first 18 columns -/

/-- Keeping the first 18 of 128 columns reads, at (r, q), the operand at (r, q) with q counted among the 128. -/
theorem keep18 (P : S16384x128.Idx → Elt Ideal .f32) (h : S16384x128.Slices ![0, 0] S16384x18) (i : S16384x18.Idx) :
    extractStridedSlice S16384x18 ![0, 0] P h i = P (ix2 (i 0) (Cert.Mlp.col18 (i 1))) := by
  refine extractStridedSlice_apply ![0, 0] P h i (ix2 (i 0) (Cert.Mlp.col18 (i 1))) (fun a => ?_)
  match a with
  | ⟨0, _⟩ => exact (Nat.zero_add _).symm
  | ⟨1, _⟩ => exact (Nat.zero_add _).symm

/-- The program's result after the grid and the one operation that follows it: the answer. -/
theorem tail_result (c : Dev nD) :
    Pipeline.afterTail₀ cfgs (dats m) 0 (V0 m) [hostOps1] c main_v0 = answer m c := by
  unfold Pipeline.afterTail₀
  show StableHlo.after hostOps1 _ (Proc.devRef .tc main_v0) = _
  after_results
  show extractStridedSlice S16384x18 ![0, 0]
      (Pipeline.withArrays spec0 c (V0 m c) (fun w => (dats m 0 c).arrAt w cfg0.N) (Proc.devRef .tc (Pipeline.arrRef spec0 5)))
      slices_S16384x128_S16384x18_0_0 = answer m c
  rw [Pipeline.withArrays_arr spec0 launch0.win.arr_inj c _ _ 5, final m c]
  funext i
  exact (keep18 _ _ i).trans rfl

/-- The reference's run: it ends with the result array at the answer and the arguments as launched. -/
theorem run : θ_run defs (onTc (τ := τ) (main (F := Ideal))) ⟨m, fun _ => 0, ρ⟩ fun r => ∀ c : Dev nD,
      r.2.mem ((c : Thread nD τ).loc main_v0) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨((h c).2 main_v0 (Pipeline.mem_restRefs_of main_v0 (by decide) (by decide))).trans (tail_result m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).1 3).trans (((dats m 0 c).arrAt_in 3 rfl _).trans ((A_eq m c 3).trans (V_main_arg3 m c))),
       ((h c).1 4).trans (((dats m 0 c).arrAt_in 4 rfl _).trans ((A_eq m c 4).trans (V_main_arg4 m c)))⟩)
    (run_main m ρ)

end Cert.ReferenceIdeal.Rows

end
-- ==== Proof.lean ====
/-
  Two programs for one two-layer perceptron, equal entry by entry on the extended reals.

  Both take a batch x of 16384 rows of 512 features, hidden weights w1 (512 × 512) with offsets b1, and output
  weights w2 (512 × 128) with offsets b2, and return for every row r and each of the first 18 output columns q

      ( Σ_h  max( (Σ_k x[r,k] · w1[k,h]) + b1[h] , 0 ) · w2[h,q] ) + b2[q] .

  The kernel walks the batch in four blocks of 4096 rows, rounds its operands to a shorter number format
  before each product — which changes nothing on the extended reals — and keeps the 18 columns inside its
  body.  The reference walks the batch in sixteen blocks of 1024 rows, writes all 128 columns, and keeps the
  first 18 afterwards.  Each row of the result depends on its own row of the batch only, so cutting the batch
  into blocks of either height gives the same entries (Proof/KernelRows.lean, Proof/ReferenceRows.lean: each
  program's result array is the function Mlp.actions of Proof/MlpSpec.lean of the arrays as launched), and the
  two results agree as soon as the arrays they start from do.  The two sides are the same expression of the
  entries, term for term, so no law of arithmetic is used and the finiteness of the inputs is never opened.
  The kernel's idealization rewrote no operation, so there is nothing to preserve beyond the text itself.
-/
import proofs.«103398_g2000305475654805_pallasbulk_154_25_alg».proof.Defs
import proofs.«103398_g2000305475654805_pallasbulk_154_25_alg».proof.Proof.Gen.Kernel
import proofs.«103398_g2000305475654805_pallasbulk_154_25_alg».proof.Proof.Gen.Kernel.Frame
import proofs.«103398_g2000305475654805_pallasbulk_154_25_alg».proof.Proof.Gen.KernelIdeal
import proofs.«103398_g2000305475654805_pallasbulk_154_25_alg».proof.Proof.Gen.KernelIdeal.Frame
import proofs.«103398_g2000305475654805_pallasbulk_154_25_alg».proof.Proof.Gen.KernelIdeal.Value
import proofs.«103398_g2000305475654805_pallasbulk_154_25_alg».proof.Proof.Gen.ReferenceIdeal
import proofs.«103398_g2000305475654805_pallasbulk_154_25_alg».proof.Proof.Gen.ReferenceIdeal.Frame
import proofs.«103398_g2000305475654805_pallasbulk_154_25_alg».proof.Proof.Gen.Pre_finite_inputs
import proofs.«103398_g2000305475654805_pallasbulk_154_25_alg».proof.Proof.KernelRows
import proofs.«103398_g2000305475654805_pallasbulk_154_25_alg».proof.Proof.ReferenceRows
import Idealize.ShloMosaic.Adequacy
import Idealize.ShloMosaic.Init

noncomputable section

namespace Cert.Proof

open Idealize.ShloMosaic Idealize.ShloMosaic.TcCoe Idealize.SL.Sem

/-- Each program terminates without a fault and leaves its arguments as they were. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ => Cert.ReferenceIdeal.Gen.frame m ρ

/-- From arrays that agree, the kernel ends with its result at the perceptron's first 18 output columns of its
    arrays, the reference with its result at the same function of its own: one array. -/
theorem algebraic : Cert.algebraic_KernelIdeal_ReferenceIdeal := by
  intro m ρ m' ρ' _ hagree
  refine ⟨fun c => Cert.KernelIdeal.Rows.answer m c, Cert.KernelIdeal.Rows.run m ρ, ?_⟩
  refine (θ_run Cert.ReferenceIdeal.defs _ _).mono (fun _ h c => ⟨(h c).1.trans ?_, (h c).2⟩)
    (Cert.ReferenceIdeal.Rows.run m' ρ')
  show Cert.Mlp.actions _ _ _ _ _ = Cert.Mlp.actions _ _ _ _ _
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
